-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x4096 : Shape := ⟨2, ![1024, 4096]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S1024x4096 .f32) (main_arg5 : FVec F S4096 .f32) (main_arg6 : FVec F S4096 .f32) (main_arg7 : FVec F S4096 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_v33

def fn {F : FTy → Type} [FloatOps F] (main_arg0 : FVec F S4096x1024 .f32) (main_arg1 : FVec F S4096x1024 .f32) (main_arg2 : FVec F S4096x1024 .f32) (main_arg3 : FVec F S1024x4096 .f32) (main_arg4 : FVec F S1024x4096 .f32) (main_arg5 : FVec F S4096 .f32) (main_arg6 : FVec F S4096 .f32) (main_arg7 : FVec F S4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_arg7 main_v13 main_v16
-- ==== Kernel.lean ====
abbrev S4096x1024 : Shape := ⟨2, ![4096, 1024]⟩
abbrev S1024x4096 : Shape := ⟨2, ![1024, 4096]⟩
abbrev S4096 : Shape := ⟨1, ![4096]⟩
abbrev S1x4096 : Shape := ⟨2, ![1, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 15
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S1024x4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S1024x4096, .bf16⟩
  | .hbm, ⟨9, _⟩ => ⟨S1024x4096, .bf16⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S4096x1024, .f32⟩
  | .hbm, ⟨14, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S1x4096, .f32⟩
  | .local _ .vmem, ⟨10, _⟩ => ⟨S1x4096, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  reduces_S512x4096_S512 : S512x4096.Reduces [1] S512
  shapeCasts_S512_S512x1 : S512.ShapeCasts S512x1
  broadcasts_S512x1_S512x4096 : S512x1.Broadcasts S512x4096
  slices_S512x4096_o0_0_S512x1024 : S512x4096.Slices ![0, 0] S512x1024
  slices_S512x4096_o0_1024_S512x1024 : S512x4096.Slices ![0, 1024] S512x1024
  slices_S512x4096_o0_2048_S512x1024 : S512x4096.Slices ![0, 2048] S512x1024
  slices_S512x4096_o0_3072_S512x1024 : S512x4096.Slices ![0, 3072] S512x1024
  dot_S512x1024_S1024x4096_S512x4096_1_0_0_1_n_n_wf : DotDims.WF S512x1024 S1024x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S4096x1024.size a
  hwx0_8 : ∀ i : grid0.Coords, EltTy.bits .f32 = 32 ∨ (Rect.block (s := S4096x1024) S512x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S4096x1024.size a
  hwx0_9 : ∀ i : grid0.Coords, EltTy.bits .f32 = 32 ∨ (Rect.block (s := S4096x1024) S512x1024.size (cc0_transform_9 i) (hinb0_9 i)).WholeWords (EltTy.packing .f32)

variable [Facts₀]

def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5_0) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_1) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x4096 : Shape := ⟨2, ![1024, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩
abbrev S4096x1 : Shape := ⟨2, ![4096, 1]⟩

abbrev nBuf : Space → Nat
  | .hbm => 77
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S1024x4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x4096, .f32⟩
  | .hbm, ⟨36, _⟩ => ⟨S4096x4096, .f32⟩
  | .hbm, ⟨37, _⟩ => ⟨S1x4096, .f32⟩
  | .hbm, ⟨38, _⟩ => ⟨S4096x4096, .f32⟩
  | .hbm, ⟨39, _⟩ => ⟨S4096x4096, .f32⟩
  | .hbm, ⟨40, _⟩ => ⟨S1x4096, .f32⟩
  | .hbm, ⟨41, _⟩ => ⟨S4096x4096, .f32⟩
  | .hbm, ⟨42, _⟩ => ⟨S4096x4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  slices_S4096x4096_S4096x1024_0_0 : S4096x4096.Slices ![0, 0] S4096x1024
  bcast_S_S4096x1024 : S_.BroadcastsInDim S4096x1024 (![] : Fin 0 → Fin S4096x1024.rank)
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.CellAlgebra.lean ====
/-
  The mathematics of one LSTM step with layer normalisation, on the extended reals, free of any program.

  A row `a` of 4096 gate pre-activations is normalised by its mean and variance, scaled and shifted column by column,
  and cut into four gates of 1024 columns: input, forget, output (each through a sigmoid) and candidate (through tanh).
  The new cell state is `f · c + i · g` and the new hidden state `o · tanh (f · c + i · g)`.

  Two spellings of two of the ingredients occur, and this file proves them equal:
  * the variance, as `max (E[a²] − E[a]², 0)` (one pass over the row) and as `E[(a − E[a])²]` (two passes). On REAL rows
    the second is the first without the maximum, and it is a mean of squares, hence not negative, so the maximum is idle.
    (With an infinite entry the two differ: the first gives `0`, the second `⊤`; the statement is for real rows.)
  * the sigmoid, as `½ · (1 + tanh (½ · z))` and as `1 / (1 + e^{−z})`. These agree at every extended real, the two
    infinities included (`tanh (±∞) = ±1`, `e^{−∞} = 0`, `1 / ∞ = 0`).
-/
import Idealize.ShloMosaic.PureOps.Ideal

noncomputable section

namespace Cert.LstmCell

open Idealize.ShloMosaic

/-! ## The float literals the two programs spell, as the numbers they denote -/

theorem lit_zero : Ideal.ofBits .f32 0x00000000#32 = ((0 : ℝ) : EReal) := by
  simp [Ideal.ofBits, Ideal.ieee]

theorem lit_one : Ideal.ofBits .f32 0x3F800000#32 = ((1 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_4096 : Ideal.ofBits .f32 0x45800000#32 = ((4096 : ℝ) : EReal) := by
  simp [Ideal.ofBits, Ideal.ieee, -EReal.coe_mul]; norm_num

/-! ## The ingredients, row by row -/

/-- The mean of a row: its sum divided by the float `4096.0`. -/
def rowMean {n : ℕ} (a : Fin n → EReal) : EReal :=
  Ideal.div (∑ k, a k) (Ideal.ofBits .f32 0x45800000#32)

/-- The variance in one pass: the mean of the squares less the square of the mean, kept from going below zero. -/
def varOnePass {n : ℕ} (a : Fin n → EReal) : EReal :=
  max (Ideal.div (∑ k, a k * a k) (Ideal.ofBits .f32 0x45800000#32) - rowMean a * rowMean a)
    (Ideal.ofBits .f32 0x00000000#32)

/-- The variance in two passes: the mean of the squared deviations from the mean. -/
def varTwoPass {n : ℕ} (a : Fin n → EReal) : EReal :=
  Ideal.div (∑ k, (a k - rowMean a) * (a k - rowMean a)) (Ideal.ofBits .f32 0x45800000#32)

/-- The sigmoid through the hyperbolic tangent. -/
def sigTanh (z : EReal) : EReal :=
  Ideal.ofBits .f32 0x3F000000#32 * (Ideal.ofBits .f32 0x3F800000#32 + Ideal.tanh (Ideal.ofBits .f32 0x3F000000#32 * z))

/-- The sigmoid through the exponential. -/
def sigExp (z : EReal) : EReal :=
  Ideal.div (Ideal.ofBits .f32 0x3F800000#32) (Ideal.ofBits .f32 0x3F800000#32 + Ideal.exp (-z))

/-- The normalised, scaled and shifted row at column `q`: `(a q − mean) · rsqrt (var + ε) · γ q + β q`, the variance
    `var` a parameter (either spelling), `ε` the float `9.99999974e-6`. -/
def gate {n : ℕ} (var : (Fin n → EReal) → EReal) (a γ β : Fin n → EReal) (q : Fin n) : EReal :=
  (a q - rowMean a) * Ideal.rsqrt (var a + Ideal.ofBits .f32 0x3727C5AC#32) * γ q + β q

/-- Column `o + q` of the 4096, for `q` among 1024 and an offset `o` that leaves room. -/
def col (o : ℕ) (ho : o + 1024 ≤ 4096) (q : Fin 1024) : Fin 4096 := ⟨o + q.val, by have := q.isLt; omega⟩

theorem col_val (o : ℕ) (ho : o + 1024 ≤ 4096) (q : Fin 1024) : (col o ho q).val = o + q.val := rfl

/-- The new cell state at column `q`: forget gate times old state plus input gate times candidate; `z` the
    normalised row, `c` the old state's row, `sig` the sigmoid (either spelling). -/
def nextC (sig : EReal → EReal) (z : Fin 4096 → EReal) (c : Fin 1024 → EReal) (q : Fin 1024) : EReal :=
  sig (z (col 1024 (by norm_num) q)) * c q + sig (z (col 0 (by norm_num) q)) * Ideal.tanh (z (col 3072 (by norm_num) q))

/-- The new hidden state at column `q`: output gate times tanh of the new cell state. -/
def nextH (sig : EReal → EReal) (z : Fin 4096 → EReal) (c : Fin 1024 → EReal) (q : Fin 1024) : EReal :=
  sig (z (col 2048 (by norm_num) q)) * Ideal.tanh (nextC sig z c q)

/-! ## Sums of reals inside the extended reals -/

/-- The coercion of the reals into the extended reals commutes with finite sums. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert i s hi ih => rw [Finset.sum_insert hi, Finset.sum_insert hi, ih, EReal.coe_add]

/-! ## The two variances agree on real rows -/

/-- Over the reals: the mean of the squares less the square of the mean is the mean of the squared deviations, for a
    row of exactly 4096 entries divided by 4096. -/
theorem real_var (f : Fin 4096 → ℝ) :
    (∑ k, f k * f k) * (1 / 4096) - (∑ k, f k) * (1 / 4096) * ((∑ k, f k) * (1 / 4096))
      = (∑ k, (f k - (∑ j, f j) * (1 / 4096)) * (f k - (∑ j, f j) * (1 / 4096))) * (1 / 4096) := by
  have h : ∀ k, (f k - (∑ j, f j) * (1 / 4096)) * (f k - (∑ j, f j) * (1 / 4096))
      = f k * f k - 2 * ((∑ j, f j) * (1 / 4096)) * f k + (∑ j, f j) * (1 / 4096) * ((∑ j, f j) * (1 / 4096)) := fun k => by ring
  rw [Finset.sum_congr rfl fun k _ => h k, Finset.sum_add_distrib, Finset.sum_sub_distrib, ← Finset.mul_sum,
    Finset.sum_const, Finset.card_univ, Fintype.card_fin, nsmul_eq_mul]
  push_cast
  ring

/-- On a row of reals the one-pass variance (with its guard against a negative value) is the two-pass variance. -/
theorem varOnePass_eq_varTwoPass (a : Fin 4096 → EReal) (ha : ∀ k, ∃ r : ℝ, a k = (r : EReal)) :
    varOnePass a = varTwoPass a := by
  choose f hf using ha
  obtain rfl : a = fun k => ((f k : ℝ) : EReal) := funext hf
  have h4 : (4096 : ℝ) ≠ 0 := by norm_num
  unfold varOnePass varTwoPass rowMean
  simp only [lit_4096, lit_zero, Ideal.div_coe h4, ← EReal.coe_mul, ← EReal.coe_sub, coe_sum]
  rw [real_var f]
  exact max_eq_left (EReal.coe_le_coe_iff.mpr
    (mul_nonneg (Finset.sum_nonneg fun k _ => mul_self_nonneg _) (by norm_num)))

/-! ## The two sigmoids agree everywhere -/

/-- Over the reals: `½ (1 + tanh (½ r)) = 1 / (1 + e^{−r})`. -/
theorem real_sigmoid (r : ℝ) : 1 / 2 * (1 + Real.tanh (1 / 2 * r)) = 1 * (1 / (1 + Real.exp (-r))) := by
  have hu : 0 < Real.exp (1 / 2 * r) := Real.exp_pos _
  have hw : Real.exp (-(1 / 2 * r)) = (Real.exp (1 / 2 * r))⁻¹ := Real.exp_neg _
  have hr : Real.exp (-r) = (Real.exp (1 / 2 * r))⁻¹ * (Real.exp (1 / 2 * r))⁻¹ := by
    rw [← hw, ← Real.exp_add]; congr 1; ring
  rw [Real.tanh_eq_sinh_div_cosh, Real.sinh_eq, Real.cosh_eq, hw, hr]
  have hu' := hu.ne'
  field_simp
  ring

theorem sigTanh_eq_sigExp (z : EReal) : sigTanh z = sigExp z := by
  unfold sigTanh sigExp
  rw [lit_half, lit_one]
  induction z using EReal.rec with
  | bot =>
    rw [EReal.coe_mul_bot_of_pos (by norm_num), Ideal.tanh_bot, EReal.neg_bot, Ideal.exp_top]
    have h1 : ((1 : ℝ) : EReal) + -1 = ((0 : ℝ) : EReal) := by
      rw [show (-1 : EReal) = ((-1 : ℝ) : EReal) by rw [EReal.coe_neg, EReal.coe_one], ← EReal.coe_add]; norm_num
    have h2 : ((1 : ℝ) : EReal) + ⊤ = ⊤ := EReal.coe_add_top 1
    rw [h1, h2, Ideal.div, if_neg (by decide), EReal.inv_top, ← EReal.coe_mul, mul_zero, EReal.coe_zero, mul_zero]
  | top =>
    rw [EReal.coe_mul_top_of_pos (by norm_num), Ideal.tanh_top, EReal.neg_top, Ideal.exp_bot]
    have h1 : ((1 : ℝ) : EReal) + 1 = ((2 : ℝ) : EReal) := by
      rw [show (1 : EReal) = ((1 : ℝ) : EReal) from EReal.coe_one.symm, ← EReal.coe_add]; norm_num
    have h2 : ((1 : ℝ) : EReal) + 0 = ((1 : ℝ) : EReal) := add_zero _
    have h1' : (1 : ℝ) ≠ 0 := one_ne_zero
    rw [h1, h2, Ideal.div_coe h1', ← EReal.coe_mul, ← EReal.coe_mul]
    norm_num
  | coe r =>
    have hpos : (1 + Real.exp (-r) : ℝ) ≠ 0 := by positivity
    rw [← EReal.coe_mul, Ideal.tanh_coe, ← EReal.coe_add, ← EReal.coe_mul, ← EReal.coe_neg, Ideal.exp_coe, ← EReal.coe_add,
      Ideal.div_coe hpos, ← EReal.coe_mul, real_sigmoid r]

end Cert.LstmCell

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.CellSpec.lean ====
/-
  One LSTM step with layer normalisation as two whole-array functions of the argument arrays.

  For a batch of `B` rows: row `p` of the gate pre-activations is `x[p,·] · Wx + h[p,·] · Wh + b` (4096 columns, each a
  sum over the 1024 features); the row is normalised, scaled by `γ` and shifted by `β` (`normed`), and the new cell and
  hidden states at `(p, q)` are `nextC` and `nextH` of that row and of row `p` of the old cell state. The spelling of the
  variance and of the sigmoid are parameters, so the same two functions describe a program that takes the variance in
  one pass and the sigmoid through tanh, and one that takes the variance in two passes and the sigmoid through exp.

  Three facts: the value at row `p` depends on row `p` of `x`, `h` and `c` only (so a block of rows computes its rows of
  the whole); real inputs give real pre-activations; and then the two spellings give the same arrays.
-/
import proofs.«123146_j60550448939164_2_alg».proof.Proof.CellAlgebra
import proofs.«123146_j60550448939164_2_alg».proof.Proof.LibPlainDot

noncomputable section

namespace Cert.LstmCell

open Idealize.ShloMosaic Idealize.ShloMosaic.ValueIdx Cert.Lib.PlainDot

variable {B : ℕ}

/-- Row `p` of the gate pre-activations `x · Wx + h · Wh + b`. -/
def preact (x h : (⟨2, ![B, 1024]⟩ : Shape).Idx → EReal) (wx wh : (⟨2, ![1024, 4096]⟩ : Shape).Idx → EReal)
    (b : Fin 4096 → EReal) (p : Fin B) : Fin 4096 → EReal :=
  fun k => rowsByCols x wx (ix2 p k) + rowsByCols h wh (ix2 p k) + b k

/-- Row `p` normalised, scaled and shifted. -/
def normed (var : (Fin 4096 → EReal) → EReal) (x h : (⟨2, ![B, 1024]⟩ : Shape).Idx → EReal)
    (wx wh : (⟨2, ![1024, 4096]⟩ : Shape).Idx → EReal) (b γ β : Fin 4096 → EReal) (p : Fin B) : Fin 4096 → EReal :=
  gate var (preact x h wx wh b p) γ β

/-- The new cell state, as an array. -/
def cellC (var : (Fin 4096 → EReal) → EReal) (sig : EReal → EReal) (x h c : (⟨2, ![B, 1024]⟩ : Shape).Idx → EReal)
    (wx wh : (⟨2, ![1024, 4096]⟩ : Shape).Idx → EReal) (b γ β : Fin 4096 → EReal) : (⟨2, ![B, 1024]⟩ : Shape).Idx → EReal :=
  fun j => nextC sig (normed var x h wx wh b γ β (j 0)) (fun q => c (ix2 (j 0) q)) (j 1)

/-- The new hidden state, as an array. -/
def cellH (var : (Fin 4096 → EReal) → EReal) (sig : EReal → EReal) (x h c : (⟨2, ![B, 1024]⟩ : Shape).Idx → EReal)
    (wx wh : (⟨2, ![1024, 4096]⟩ : Shape).Idx → EReal) (b γ β : Fin 4096 → EReal) : (⟨2, ![B, 1024]⟩ : Shape).Idx → EReal :=
  fun j => nextH sig (normed var x h wx wh b γ β (j 0)) (fun q => c (ix2 (j 0) q)) (j 1)

section
variable (var : (Fin 4096 → EReal) → EReal) (sig : EReal → EReal) (x h c : (⟨2, ![B, 1024]⟩ : Shape).Idx → EReal)
  (wx wh : (⟨2, ![1024, 4096]⟩ : Shape).Idx → EReal) (b γ β : Fin 4096 → EReal)

theorem cellC_apply (p : Fin B) (q : Fin 1024) :
    cellC var sig x h c wx wh b γ β (ix2 p q) = nextC sig (normed var x h wx wh b γ β p) (fun q' => c (ix2 p q')) q := rfl

theorem cellH_apply (p : Fin B) (q : Fin 1024) :
    cellH var sig x h c wx wh b γ β (ix2 p q) = nextH sig (normed var x h wx wh b γ β p) (fun q' => c (ix2 p q')) q := rfl
end

/-! ## Rows -/

section Rows
variable {B' : ℕ} (var : (Fin 4096 → EReal) → EReal) (sig : EReal → EReal)
  (x h c : (⟨2, ![B, 1024]⟩ : Shape).Idx → EReal) (x' h' c' : (⟨2, ![B', 1024]⟩ : Shape).Idx → EReal)
  (wx wh : (⟨2, ![1024, 4096]⟩ : Shape).Idx → EReal) (b γ β : Fin 4096 → EReal) (p : Fin B) (p' : Fin B')

/-- The pre-activations of a row are those of any array holding the same row of `x` and of `h`. -/
theorem preact_rows (hx : ∀ k, x' (ix2 p' k) = x (ix2 p k)) (hh : ∀ k, h' (ix2 p' k) = h (ix2 p k)) :
    preact x' h' wx wh b p' = preact x h wx wh b p := by
  funext k
  unfold preact
  rw [rowsByCols_congr x wx x' wx (ix2 p' k) (ix2 p k) hx (fun _ => rfl),
    rowsByCols_congr h wh h' wh (ix2 p' k) (ix2 p k) hh (fun _ => rfl)]

theorem cellC_rows (hx : ∀ k, x' (ix2 p' k) = x (ix2 p k)) (hh : ∀ k, h' (ix2 p' k) = h (ix2 p k))
    (hc : ∀ q, c' (ix2 p' q) = c (ix2 p q)) (q : Fin 1024) :
    cellC var sig x' h' c' wx wh b γ β (ix2 p' q) = cellC var sig x h c wx wh b γ β (ix2 p q) := by
  rw [cellC_apply, cellC_apply]
  unfold normed
  rw [preact_rows x h x' h' wx wh b p p' hx hh, show (fun q' => c' (ix2 p' q')) = fun q' => c (ix2 p q') from funext hc]

theorem cellH_rows (hx : ∀ k, x' (ix2 p' k) = x (ix2 p k)) (hh : ∀ k, h' (ix2 p' k) = h (ix2 p k))
    (hc : ∀ q, c' (ix2 p' q) = c (ix2 p q)) (q : Fin 1024) :
    cellH var sig x' h' c' wx wh b γ β (ix2 p' q) = cellH var sig x h c wx wh b γ β (ix2 p q) := by
  rw [cellH_apply, cellH_apply]
  unfold normed
  rw [preact_rows x h x' h' wx wh b p p' hx hh, show (fun q' => c' (ix2 p' q')) = fun q' => c (ix2 p q') from funext hc]

end Rows

/-! ## Real inputs, and the two spellings -/

section Real
variable (x h c : (⟨2, ![B, 1024]⟩ : Shape).Idx → EReal) (wx wh : (⟨2, ![1024, 4096]⟩ : Shape).Idx → EReal)
  (b γ β : Fin 4096 → EReal)

/-- Sums of products of reals, and their sum with a real, are real. -/
theorem preact_real (hx : ∀ i, ∃ r : ℝ, x i = (r : EReal)) (hh : ∀ i, ∃ r : ℝ, h i = (r : EReal))
    (hwx : ∀ i, ∃ r : ℝ, wx i = (r : EReal)) (hwh : ∀ i, ∃ r : ℝ, wh i = (r : EReal))
    (hb : ∀ k, ∃ r : ℝ, b k = (r : EReal)) (p : Fin B) (k : Fin 4096) :
    ∃ r : ℝ, preact x h wx wh b p k = (r : EReal) := by
  choose fx hfx using hx
  choose fh hfh using hh
  choose fwx hfwx using hwx
  choose fwh hfwh using hwh
  choose fb hfb using hb
  refine ⟨(∑ j : Fin 1024, fx (ix2 p j) * fwx (ix2 j k)) + (∑ j : Fin 1024, fh (ix2 p j) * fwh (ix2 j k)) + fb k, ?_⟩
  unfold preact
  rw [rowsByCols_apply, rowsByCols_apply]
  simp only [hfx, hfh, hfwx, hfwh, hfb, ← EReal.coe_mul, coe_sum, ← EReal.coe_add]
  rfl

/-- On real inputs the program that takes the variance in one pass and the sigmoid through tanh computes the same new
    cell state as the one that takes the variance in two passes and the sigmoid through exp … -/
theorem cellC_two_spellings (hreal : ∀ p k, ∃ r : ℝ, preact x h wx wh b p k = (r : EReal)) :
    cellC varOnePass sigTanh x h c wx wh b γ β = cellC varTwoPass sigExp x h c wx wh b γ β := by
  funext j
  have hs : sigTanh = sigExp := funext sigTanh_eq_sigExp
  have hv : varOnePass (preact x h wx wh b (j 0)) = varTwoPass (preact x h wx wh b (j 0)) :=
    varOnePass_eq_varTwoPass _ (hreal (j 0))
  unfold cellC normed gate
  rw [hs, hv]

/-- … and the same new hidden state. -/
theorem cellH_two_spellings (hreal : ∀ p k, ∃ r : ℝ, preact x h wx wh b p k = (r : EReal)) :
    cellH varOnePass sigTanh x h c wx wh b γ β = cellH varTwoPass sigExp x h c wx wh b γ β := by
  funext j
  have hs : sigTanh = sigExp := funext sigTanh_eq_sigExp
  have hv : varOnePass (preact x h wx wh b (j 0)) = varTwoPass (preact x h wx wh b (j 0)) :=
    varOnePass_eq_varTwoPass _ (hreal (j 0))
  unfold cellH normed gate
  rw [hs, hv]

end Real

end Cert.LstmCell

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.KernelPayload.lean ====
/-
  What the kernel's body computes, read at an index, on the extended reals.

  The body loads a block of 512 rows of `x`, `h` and the old cell state, the two weight matrices whole, and the bias,
  scale and shift as `1 × 4096` rows. Its first payload is the normalised and scaled pre-activation block (`512 × 4096`):
  two matrix products into zero accumulators and a broadcast bias give the pre-activations, two row sums divided by
  4096 give the mean and the mean of squares, and the row is centred, multiplied by `rsqrt (max (E[a²] − E[a]², 0) + ε)`
  and by the scale. The shift is added, the four gates are cut as column slices, and the two stored payloads are the new
  cell state and the new hidden state. Read at `(p, q)` they are `cellC` and `cellH` of the loaded blocks, with the
  variance in one pass and the sigmoid through tanh.
-/
import proofs.«123146_j60550448939164_2_alg».proof.Proof.Gen.KernelIdeal.Skeleton
import proofs.«123146_j60550448939164_2_alg».proof.Proof.CellSpec
import proofs.«123146_j60550448939164_2_alg».proof.Proof.LibKeepdimsColumn
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx
open Cert.LstmCell Cert.Lib.PlainDot Cert.Gcn.Lib

variable [Cert.KernelIdeal.Facts]
open Cert.KernelIdeal.Facts

/-- `rsqrt` and `tanh` of a vector, read at an index. -/
theorem rsqrt_apply {s : Shape} {φ : FTy} (a : FVec Ideal s φ) (i : s.Idx) : rsqrt a i = Ideal.rsqrt (a i) := rfl
theorem tanh_apply {s : Shape} {φ : FTy} (a : FVec Ideal s φ) (i : s.Idx) : tanh a i = Ideal.tanh (a i) := rfl

/-- A `1 × 4096` row, recast to its own shape and broadcast over 512 rows, reads the row at the column. -/
theorem rowOver_apply (v : FVec Ideal S1x4096 .f32) (p : Fin 512) (k : Fin 4096) :
    broadcastTo S512x4096 (shapeCast S1x4096 v shapeCasts_S1x4096_S1x4096) broadcasts_S1x4096_S512x4096 (ix2 p k)
      = v (ix2 (0 : Fin 1) k) := by
  rw [shapeCast_self]
  exact broadcastTo_1b_ab_apply v broadcasts_S1x4096_S512x4096 p k

/-- A block of 512 rows times a whole weight matrix, into a zero accumulator: the rows' products. -/
theorem blockDot_eq (l : FVec Ideal S512x1024 .f32) (w : FVec Ideal S1024x4096 .bf16) :
    matmul dot_S512x1024_S1024x4096_S512x4096_1_0_0_1_n_n none (truncf .bf16 l bitsLt_bf16_f32)
      (shapeCast S1024x4096 w shapeCasts_S1024x4096_S1024x4096) (constant S512x4096 .f32 0x00000000#32)
      = rowsByCols l w := by
  rw [shapeCast_self]
  exact matmul_zero_eq dot_S512x1024_S1024x4096_S512x4096_1_0_0_1_n_n rfl none (truncf .bf16 l bitsLt_bf16_f32) w

/-- The pre-activation block at `(p, k)`. -/
theorem act_apply (v0 v2 : FVec Ideal S512x1024 .f32) (v4 v7 : FVec Ideal S1024x4096 .bf16) (v11 : FVec Ideal S1x4096 .f32)
    (p : Fin 512) (k : Fin 4096) :
    addf (addf (matmul dot_S512x1024_S1024x4096_S512x4096_1_0_0_1_n_n none (truncf .bf16 v0 bitsLt_bf16_f32)
          (shapeCast S1024x4096 v4 shapeCasts_S1024x4096_S1024x4096) (constant S512x4096 .f32 0x00000000#32))
        (matmul dot_S512x1024_S1024x4096_S512x4096_1_0_0_1_n_n none (truncf .bf16 v2 bitsLt_bf16_f32)
          (shapeCast S1024x4096 v7 shapeCasts_S1024x4096_S1024x4096) (constant S512x4096 .f32 0x00000000#32)))
      (broadcastTo S512x4096 (shapeCast S1x4096 v11 shapeCasts_S1x4096_S1x4096) broadcasts_S1x4096_S512x4096) (ix2 p k)
      = preact v0 v2 v4 v7 (fun k => v11 (ix2 (0 : Fin 1) k)) p k := by
  rw [blockDot_eq, blockDot_eq, addf_apply, addf_apply, rowOver_apply]
  rfl

/-- A column of 512 entries (a row statistic kept as a `512 × 1` array) from a row sum, divided by the float 4096. -/
theorem meanCol_apply (A : FVec Ideal S512x4096 .f32) (p : Fin 512) :
    divf (shapeCast S512x1 (multiReduction .add [1] S512 A 0x00000000#32 reduces_S512x4096_S512 (.inl rfl) rfl) shapeCasts_S512_S512x1)
      (broadcast S512x1 (Scalar.ofBits .f32 0x45800000#32)) (ix2 p (0 : Fin 1))
      = Ideal.div (∑ k : Fin 4096, A (ix2 p k)) (Ideal.ofBits .f32 0x45800000#32) := by
  rw [divf_apply, shapeCast_a_a1_apply, rowsum_apply]
  rfl

/-- The normalised and scaled pre-activation block (the body's first payload) at `(p, q)`. -/
theorem pay4_apply (v0 v2 : FVec Ideal S512x1024 .f32) (v4 v7 : FVec Ideal S1024x4096 .bf16) (v11 v35 : FVec Ideal S1x4096 .f32)
    (p : Fin 512) (q : Fin 4096) :
    k0_pay4 (F := Ideal) v0 v2 v4 v7 v11 v35 (ix2 p q)
      = (preact v0 v2 v4 v7 (fun k => v11 (ix2 (0 : Fin 1) k)) p q - rowMean (preact v0 v2 v4 v7 (fun k => v11 (ix2 (0 : Fin 1) k)) p))
          * Ideal.rsqrt (varOnePass (preact v0 v2 v4 v7 (fun k => v11 (ix2 (0 : Fin 1) k)) p) + Ideal.ofBits .f32 0x3727C5AC#32)
          * v35 (ix2 (0 : Fin 1) q) := by
  unfold k0_pay4
  dsimp only
  rw [mulf_apply, mulf_apply, subf_apply, rowOver_apply, broadcastTo_a1_ab_apply, broadcastTo_a1_ab_apply, rsqrt_apply,
    act_apply, addf_apply, maximumf_apply, subf_apply, mulf_apply, meanCol_apply, meanCol_apply, broadcast_apply,
    broadcast_apply]
  simp only [mulf_apply, act_apply]
  rfl

/-- The shift added: the normalised, scaled and shifted block at `(p, k)`. -/
theorem pay1_apply (v38 : FVec Ideal S512x4096 .f32) (v39 : FVec Ideal S1x4096 .f32) (p : Fin 512) (k : Fin 4096) :
    k0_pay1 (F := Ideal) v38 v39 (ix2 p k) = v38 (ix2 p k) + v39 (ix2 (0 : Fin 1) k) := by
  unfold k0_pay1
  rw [addf_apply, rowOver_apply]

/-- A gate: 1024 columns of the 4096 from column `o`. -/
theorem gateSlice_apply (o : ℕ) (ho : o + 1024 ≤ 4096) (Z : FVec Ideal S512x4096 .f32)
    (hs : S512x4096.Slices ![0, o] S512x1024) (p : Fin 512) (q : Fin 1024) :
    extractStridedSlice S512x1024 ![0, o] Z hs (ix2 p q) = Z (ix2 p (col o ho q)) :=
  slice2_axis1_apply o Z hs p q (col o ho q) (col_val o ho q)

/-- The stored new cell state at `(p, q)`, from the normalised block `Z` and the old state's block. -/
theorem pay2_apply (v38 : FVec Ideal S512x4096 .f32) (v39 : FVec Ideal S1x4096 .f32) (v69 : FVec Ideal S512x1024 .f32)
    (p : Fin 512) (q : Fin 1024) :
    k0_pay2 (F := Ideal) v38 v39 v69 (ix2 p q)
      = nextC sigTanh (fun k => k0_pay1 (F := Ideal) v38 v39 (ix2 p k)) (fun q' => v69 (ix2 p q')) q := by
  unfold k0_pay2
  simp only [addf_apply, mulf_apply, tanh_apply, broadcast_apply,
    gateSlice_apply 0 (by norm_num), gateSlice_apply 1024 (by norm_num), gateSlice_apply 3072 (by norm_num)]
  rfl

/-- The stored new hidden state at `(p, q)`. -/
theorem pay3_apply (v38 : FVec Ideal S512x4096 .f32) (v39 : FVec Ideal S1x4096 .f32) (v69 : FVec Ideal S512x1024 .f32)
    (p : Fin 512) (q : Fin 1024) :
    k0_pay3 (F := Ideal) v38 v39 v69 (ix2 p q)
      = nextH sigTanh (fun k => k0_pay1 (F := Ideal) v38 v39 (ix2 p k)) (fun q' => v69 (ix2 p q')) q := by
  unfold k0_pay3
  simp only [addf_apply, mulf_apply, tanh_apply, broadcast_apply, pay2_apply, gateSlice_apply 2048 (by norm_num)]
  rfl

section Stored
variable (P0 P1 P7 : FVec Ideal S512x1024 .f32) (P2 P3 : FVec Ideal S1024x4096 .bf16) (P4 P5 P6 : FVec Ideal S1x4096 .f32)

/-- The normalised, scaled and shifted block is `normed` of the loaded blocks, row by row. -/
theorem normedBlock_apply (p : Fin 512) (k : Fin 4096) :
    k0_pay1 (F := Ideal) (k0_pay4 P0 P1 P2 P3 P4 P5) P6 (ix2 p k)
      = normed varOnePass P0 P1 P2 P3 (fun k => P4 (ix2 (0 : Fin 1) k)) (fun k => P5 (ix2 (0 : Fin 1) k))
          (fun k => P6 (ix2 (0 : Fin 1) k)) p k := by
  rw [pay1_apply, pay4_apply]
  rfl

/-- What the body stores for the new cell state is `cellC` of the loaded blocks. -/
theorem storedC_apply (p : Fin 512) (q : Fin 1024) :
    k0_pay2 (F := Ideal) (k0_pay4 P0 P1 P2 P3 P4 P5) P6 P7 (ix2 p q)
      = cellC varOnePass sigTanh P0 P1 P7 P2 P3 (fun k => P4 (ix2 (0 : Fin 1) k)) (fun k => P5 (ix2 (0 : Fin 1) k))
          (fun k => P6 (ix2 (0 : Fin 1) k)) (ix2 p q) := by
  rw [pay2_apply, cellC_apply]
  exact congrArg (fun z => nextC sigTanh z (fun q' => P7 (ix2 p q')) q)
    (funext fun k => normedBlock_apply P0 P1 P2 P3 P4 P5 P6 p k)

/-- What the body stores for the new hidden state is `cellH` of the loaded blocks. -/
theorem storedH_apply (p : Fin 512) (q : Fin 1024) :
    k0_pay3 (F := Ideal) (k0_pay4 P0 P1 P2 P3 P4 P5) P6 P7 (ix2 p q)
      = cellH varOnePass sigTanh P0 P1 P7 P2 P3 (fun k => P4 (ix2 (0 : Fin 1) k)) (fun k => P5 (ix2 (0 : Fin 1) k))
          (fun k => P6 (ix2 (0 : Fin 1) k)) (ix2 p q) := by
  rw [pay3_apply, cellH_apply]
  exact congrArg (fun z => nextH sigTanh z (fun q' => P7 (ix2 p q')) q)
    (funext fun k => normedBlock_apply P0 P1 P2 P3 P4 P5 P6 p k)

end Stored

end Cert.KernelIdeal.Payload

end
-- ==== Proof.KernelArrays.lean ====
/-
  The two arrays the kernel leaves, as functions of its arguments.

  The grid has 8 points; at point `t` the body sees rows `512·t … 512·t + 511` of `x`, `h` and the old cell state, the two
  weight matrices whole (rounded to bf16 on the host before the call, which on the extended reals changes nothing),
  and the bias, scale and shift as `1 × 4096` rows (reshaped on the host). It writes the same rows of the new hidden
  state and of the new cell state. A row of the result depends on that row of the inputs only, so what point `t` writes
  is its block of rows of ONE whole-array function, `cellH` / `cellC` of the arguments; the 8 blocks tile the 4096
  rows, so after the run the two result arrays ARE those functions.
-/
import proofs.«123146_j60550448939164_2_alg».proof.Proof.KernelValueBlocks
import proofs.«123146_j60550448939164_2_alg».proof.Proof.KernelPayload

noncomputable section

namespace Cert.KernelIdeal.Arrays

open Cert.KernelIdeal Cert.KernelIdeal.Gen Cert.KernelIdeal.Payload Idealize.ShloMosaic Idealize.ShloMosaic.TcCoe Idealize.SL.Sem
open Idealize.ShloMosaic.ValueIdx
open Idealize.ShloMosaic.Pipeline (Dat)
open Cert.LstmCell
open Cert.KernelIdeal.Facts

variable (m : (ℓ : Loc nD τ sig) → Buf (Elt Ideal) ℓ) (ρ : Dev nD → PrngReg)

/-! ## What the region finds: the host operations before the call -/

/-- The first weight matrix rounded to bf16: the same extended reals. -/
theorem entry_wx (c : Dev nD) :
    (V m c main_v0 : S1024x4096.Idx → EReal) = (m ((c : Thread nD τ).loc main_arg3) : S1024x4096.Idx → EReal) := by
  dsimp only [Gen.V, Gen.hostOps0]; after_results; rfl

theorem entry_wh (c : Dev nD) :
    (V m c main_v1 : S1024x4096.Idx → EReal) = (m ((c : Thread nD τ).loc main_arg4) : S1024x4096.Idx → EReal) := by
  dsimp only [Gen.V, Gen.hostOps0]; after_results; rfl

/-- The bias as a `1 × 4096` row. -/
theorem entry_b (c : Dev nD) :
    (V m c main_v2 : S1x4096.Idx → EReal)
      = shapeCast S1x4096 (m ((c : Thread nD τ).loc main_arg5) : S4096.Idx → EReal) shapeCasts_S4096_S1x4096 := by
  dsimp only [Gen.V, Gen.hostOps0]; after_results; rfl

theorem entry_gamma (c : Dev nD) :
    (V m c main_v3 : S1x4096.Idx → EReal)
      = shapeCast S1x4096 (m ((c : Thread nD τ).loc main_arg6) : S4096.Idx → EReal) shapeCasts_S4096_S1x4096 := by
  dsimp only [Gen.V, Gen.hostOps0]; after_results; rfl

theorem entry_beta (c : Dev nD) :
    (V m c main_v4 : S1x4096.Idx → EReal)
      = shapeCast S1x4096 (m ((c : Thread nD τ).loc main_arg7) : S4096.Idx → EReal) shapeCasts_S4096_S1x4096 := by
  dsimp only [Gen.V, Gen.hostOps0]; after_results; rfl

/-! ## The index maps, decided over the 8 points -/

theorem hz : (![0, 0] : Fin 2 → Nat) = fun _ => 0 := funext fun a => by fin_cases a <;> rfl

/-- The row windows (inputs 0, 1, 2 and both outputs) are at block `(t, 0)`. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The whole-array windows (weights, bias, scale, shift) are at block `(0, 0)`. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row `p` of point `t`'s block is row `512·t + p` of the array. -/
def rowOf (t : Fin cfg0.N) (p : Fin 512) : Fin 4096 :=
  ⟨t.val * 512 + p.val, by have hN : cfg0.N = 8 := N_0; have := t.isLt; have := p.isLt; omega⟩

theorem rowOf_val (t : Fin cfg0.N) (p : Fin 512) : (rowOf t p).val = t.val * 512 + p.val := rfl

/-! ## The blocks, read off the arrays the region finds -/

theorem block_x (c : Dev nD) (t : Fin cfg0.N) (p : Fin 512) (k : Fin 1024) :
    (iblk m c 0 t : S512x1024.Idx → EReal) (ix2 p k) = (V m c main_arg0 : S4096x1024.Idx → EReal) (ix2 (rowOf t p) k) := by
  obtain ⟨e0, e1, -⟩ := idx_rows t
  unfold iblk
  rw [View.read_apply]
  show V m c main_arg0 _ = V m c main_arg0 _
  congr 1
  funext a; apply Fin.ext
  match a with
  | ⟨0, _⟩ => show win0_0.index t (0 : Fin 2) * 512 + 1 * p.val = t.val * 512 + p.val; rw [e0]; omega
  | ⟨1, _⟩ => show win0_0.index t (1 : Fin 2) * 1024 + 1 * k.val = k.val; rw [e1]; omega

theorem block_h (c : Dev nD) (t : Fin cfg0.N) (p : Fin 512) (k : Fin 1024) :
    (iblk m c 1 t : S512x1024.Idx → EReal) (ix2 p k) = (V m c main_arg1 : S4096x1024.Idx → EReal) (ix2 (rowOf t p) k) := by
  obtain ⟨-, -, e0, e1, -⟩ := idx_rows t
  unfold iblk
  rw [View.read_apply]
  show V m c main_arg1 _ = V m c main_arg1 _
  congr 1
  funext a; apply Fin.ext
  match a with
  | ⟨0, _⟩ => show win0_1.index t (0 : Fin 2) * 512 + 1 * p.val = t.val * 512 + p.val; rw [e0]; omega
  | ⟨1, _⟩ => show win0_1.index t (1 : Fin 2) * 1024 + 1 * k.val = k.val; rw [e1]; omega

theorem block_c (c : Dev nD) (t : Fin cfg0.N) (p : Fin 512) (k : Fin 1024) :
    (iblk m c 2 t : S512x1024.Idx → EReal) (ix2 p k) = (V m c main_arg2 : S4096x1024.Idx → EReal) (ix2 (rowOf t p) k) := by
  obtain ⟨-, -, -, -, e0, e1, -⟩ := idx_rows t
  unfold iblk
  rw [View.read_apply]
  show V m c main_arg2 _ = V m c main_arg2 _
  congr 1
  funext a; apply Fin.ext
  match a with
  | ⟨0, _⟩ => show win0_2.index t (0 : Fin 2) * 512 + 1 * p.val = t.val * 512 + p.val; rw [e0]; omega
  | ⟨1, _⟩ => show win0_2.index t (1 : Fin 2) * 1024 + 1 * k.val = k.val; rw [e1]; omega

theorem block_wx (c : Dev nD) (t : Fin cfg0.N) :
    (iblk m c 3 t : S1024x4096.Idx → EReal) = (V m c main_v0 : S1024x4096.Idx → EReal) := by
  obtain ⟨e0, e1, -⟩ := idx_whole t
  funext y
  unfold iblk
  rw [View.read_apply]
  show V m c main_v0 _ = V m c main_v0 _
  congr 1
  funext a; apply Fin.ext
  match a with
  | ⟨0, _⟩ => show win0_3.index t (0 : Fin 2) * 1024 + 1 * (y 0).val = (y 0).val; rw [e0]; omega
  | ⟨1, _⟩ => show win0_3.index t (1 : Fin 2) * 4096 + 1 * (y 1).val = (y 1).val; rw [e1]; omega

theorem block_wh (c : Dev nD) (t : Fin cfg0.N) :
    (iblk m c 4 t : S1024x4096.Idx → EReal) = (V m c main_v1 : S1024x4096.Idx → EReal) := by
  obtain ⟨-, -, e0, e1, -⟩ := idx_whole t
  funext y
  unfold iblk
  rw [View.read_apply]
  show V m c main_v1 _ = V m c main_v1 _
  congr 1
  funext a; apply Fin.ext
  match a with
  | ⟨0, _⟩ => show win0_4.index t (0 : Fin 2) * 1024 + 1 * (y 0).val = (y 0).val; rw [e0]; omega
  | ⟨1, _⟩ => show win0_4.index t (1 : Fin 2) * 4096 + 1 * (y 1).val = (y 1).val; rw [e1]; omega

theorem block_b (c : Dev nD) (t : Fin cfg0.N) :
    (iblk m c 5 t : S1x4096.Idx → EReal) = (V m c main_v2 : S1x4096.Idx → EReal) := by
  obtain ⟨-, -, -, -, e0, e1, -⟩ := idx_whole t
  funext y
  unfold iblk
  rw [View.read_apply]
  show V m c main_v2 _ = V m c main_v2 _
  congr 1
  funext a; apply Fin.ext
  match a with
  | ⟨0, _⟩ => show win0_5.index t (0 : Fin 2) * 1 + 1 * (y 0).val = (y 0).val; rw [e0]; omega
  | ⟨1, _⟩ => show win0_5.index t (1 : Fin 2) * 4096 + 1 * (y 1).val = (y 1).val; rw [e1]; omega

theorem block_gamma (c : Dev nD) (t : Fin cfg0.N) :
    (iblk m c 6 t : S1x4096.Idx → EReal) = (V m c main_v3 : S1x4096.Idx → EReal) := by
  obtain ⟨-, -, -, -, -, -, e0, e1, -⟩ := idx_whole t
  funext y
  unfold iblk
  rw [View.read_apply]
  show V m c main_v3 _ = V m c main_v3 _
  congr 1
  funext a; apply Fin.ext
  match a with
  | ⟨0, _⟩ => show win0_6.index t (0 : Fin 2) * 1 + 1 * (y 0).val = (y 0).val; rw [e0]; omega
  | ⟨1, _⟩ => show win0_6.index t (1 : Fin 2) * 4096 + 1 * (y 1).val = (y 1).val; rw [e1]; omega

theorem block_beta (c : Dev nD) (t : Fin cfg0.N) :
    (iblk m c 7 t : S1x4096.Idx → EReal) = (V m c main_v4 : S1x4096.Idx → EReal) := by
  obtain ⟨-, -, -, -, -, -, -, -, e0, e1⟩ := idx_whole t
  funext y
  unfold iblk
  rw [View.read_apply]
  show V m c main_v4 _ = V m c main_v4 _
  congr 1
  funext a; apply Fin.ext
  match a with
  | ⟨0, _⟩ => show win0_7.index t (0 : Fin 2) * 1 + 1 * (y 0).val = (y 0).val; rw [e0]; omega
  | ⟨1, _⟩ => show win0_7.index t (1 : Fin 2) * 4096 + 1 * (y 1).val = (y 1).val; rw [e1]; omega

/-! ## The whole-array functions, over what the region finds -/

/-- The new cell state. -/
def newC (c : Dev nD) : S4096x1024.Idx → EReal :=
  cellC varOnePass sigTanh (V m c main_arg0) (V m c main_arg1) (V m c main_arg2) (V m c main_v0) (V m c main_v1)
    (fun k => (V m c main_v2 : S1x4096.Idx → EReal) (ix2 (0 : Fin 1) k))
    (fun k => (V m c main_v3 : S1x4096.Idx → EReal) (ix2 (0 : Fin 1) k))
    (fun k => (V m c main_v4 : S1x4096.Idx → EReal) (ix2 (0 : Fin 1) k))

/-- The new hidden state. -/
def newH (c : Dev nD) : S4096x1024.Idx → EReal :=
  cellH varOnePass sigTanh (V m c main_arg0) (V m c main_arg1) (V m c main_arg2) (V m c main_v0) (V m c main_v1)
    (fun k => (V m c main_v2 : S1x4096.Idx → EReal) (ix2 (0 : Fin 1) k))
    (fun k => (V m c main_v3 : S1x4096.Idx → EReal) (ix2 (0 : Fin 1) k))
    (fun k => (V m c main_v4 : S1x4096.Idx → EReal) (ix2 (0 : Fin 1) k))

/-! ## What each point writes back -/

/-- Point `t` writes rows `512·t …` of the new cell state. -/
theorem flushedC_eq (c : Dev nD) (t : Fin cfg0.N) :
    (dats m 0 c).flushed 9 t = ((cfg0.win 9).blk t).view.read (Elt Ideal) (newC m c) := by
  rw [ValueP.flushed9]
  unfold out0_9
  rw [View.canon_unit_zero hz]
  simp only [View.ld_unit_zero (S := S512x1024) hz, View.ld_unit_zero (S := S1024x4096) hz, View.ld_unit_zero (S := S1x4096) hz]
  funext j
  obtain ⟨p, q, rfl⟩ : ∃ (p : Fin 512) (q : Fin 1024), j = ix2 p q := ⟨j 0, j 1, eq_ix2 j⟩
  obtain ⟨-, -, -, -, -, -, -, -, e0, e1⟩ := idx_rows t
  have hemb : ((cfg0.win 9).blk t).view.emb (ix2 p q) = (ix2 (rowOf t p) q : S4096x1024.Idx) := by
    funext a; apply Fin.ext
    match a with
    | ⟨0, _⟩ => show win0_9.index t (0 : Fin 2) * 512 + 1 * p.val = t.val * 512 + p.val; rw [e0]; omega
    | ⟨1, _⟩ => show win0_9.index t (1 : Fin 2) * 1024 + 1 * q.val = q.val; rw [e1]; omega
  show k0_pay2 (k0_pay4 (iblk m c 0 t) (iblk m c 1 t) (iblk m c 3 t) (iblk m c 4 t) (iblk m c 5 t) (iblk m c 6 t)) (iblk m c 7 t)
      (iblk m c 2 t) (ix2 p q) = newC m c (((cfg0.win 9).blk t).view.emb (ix2 p q))
  rw [hemb]
  refine (storedC_apply (iblk m c 0 t) (iblk m c 1 t) (iblk m c 2 t) (iblk m c 3 t) (iblk m c 4 t) (iblk m c 5 t)
    (iblk m c 6 t) (iblk m c 7 t) p q).trans ?_
  rw [block_wx, block_wh, block_b, block_gamma, block_beta]
  unfold newC
  exact cellC_rows varOnePass sigTanh (V m c main_arg0) (V m c main_arg1) (V m c main_arg2)
    (iblk m c 0 t) (iblk m c 1 t) (iblk m c 2 t) (V m c main_v0) (V m c main_v1) _ _ _ (rowOf t p) p
    (block_x m c t p) (block_h m c t p) (block_c m c t p) q

/-- Point `t` writes rows `512·t …` of the new hidden state. -/
theorem flushedH_eq (c : Dev nD) (t : Fin cfg0.N) :
    (dats m 0 c).flushed 8 t = ((cfg0.win 8).blk t).view.read (Elt Ideal) (newH m c) := by
  rw [ValueP.flushed8]
  unfold out0_8
  rw [View.canon_unit_zero hz]
  simp only [View.ld_unit_zero (S := S512x1024) hz, View.ld_unit_zero (S := S1024x4096) hz, View.ld_unit_zero (S := S1x4096) hz]
  funext j
  obtain ⟨p, q, rfl⟩ : ∃ (p : Fin 512) (q : Fin 1024), j = ix2 p q := ⟨j 0, j 1, eq_ix2 j⟩
  obtain ⟨-, -, -, -, -, -, e0, e1, -⟩ := idx_rows t
  have hemb : ((cfg0.win 8).blk t).view.emb (ix2 p q) = (ix2 (rowOf t p) q : S4096x1024.Idx) := by
    funext a; apply Fin.ext
    match a with
    | ⟨0, _⟩ => show win0_8.index t (0 : Fin 2) * 512 + 1 * p.val = t.val * 512 + p.val; rw [e0]; omega
    | ⟨1, _⟩ => show win0_8.index t (1 : Fin 2) * 1024 + 1 * q.val = q.val; rw [e1]; omega
  show k0_pay3 (k0_pay4 (iblk m c 0 t) (iblk m c 1 t) (iblk m c 3 t) (iblk m c 4 t) (iblk m c 5 t) (iblk m c 6 t)) (iblk m c 7 t)
      (iblk m c 2 t) (ix2 p q) = newH m c (((cfg0.win 8).blk t).view.emb (ix2 p q))
  rw [hemb]
  refine (storedH_apply (iblk m c 0 t) (iblk m c 1 t) (iblk m c 2 t) (iblk m c 3 t) (iblk m c 4 t) (iblk m c 5 t)
    (iblk m c 6 t) (iblk m c 7 t) p q).trans ?_
  rw [block_wx, block_wh, block_b, block_gamma, block_beta]
  unfold newH
  exact cellH_rows varOnePass sigTanh (V m c main_arg0) (V m c main_arg1) (V m c main_arg2)
    (iblk m c 0 t) (iblk m c 1 t) (iblk m c 2 t) (V m c main_v0) (V m c main_v1) _ _ _ (rowOf t p) p
    (block_x m c t p) (block_h m c t p) (block_c m c t p) q

/-! ## The 8 blocks tile the 4096 rows -/

theorem mem_blkC (t : Fin cfg0.N) (i : S4096x1024.Idx) :
    i ∈ ((cfg0.win 9).blk t).view.set ↔ ∀ a : Fin 2, win0_9.index t a * S512x1024.size a ≤ (i a).val
      ∧ (i a).val < win0_9.index t a * S512x1024.size a + S512x1024.size a := by
  show i ∈ ((View.whole main_v5_1).slice (win0_9.rect t)).set ↔ _
  rw [View.set_slice_whole, Rect.mem_set_unit]
  exact Iff.rfl

theorem mem_blkH (t : Fin cfg0.N) (i : S4096x1024.Idx) :
    i ∈ ((cfg0.win 8).blk t).view.set ↔ ∀ a : Fin 2, win0_8.index t a * S512x1024.size a ≤ (i a).val
      ∧ (i a).val < win0_8.index t a * S512x1024.size a + S512x1024.size a := by
  show i ∈ ((View.whole main_v5_0).slice (win0_8.rect t)).set ↔ _
  rw [View.set_slice_whole, Rect.mem_set_unit]
  exact Iff.rfl

/-- Row `r` is in the block of point `r / 512`. -/
theorem coverC (i : S4096x1024.Idx) :
    ∃ t : Fin cfg0.N, (cfg0.win 9).flush t = true ∧ i ∈ ((cfg0.win 9).blk t).view.set := by
  have hN : cfg0.N = 8 := N_0
  have hi0 : (i 0).val < 4096 := (i 0).isLt
  have hi1 : (i 1).val < 1024 := (i 1).isLt
  obtain ⟨t, ht⟩ : ∃ t : Fin cfg0.N, t.val = (i 0).val / 512 := ⟨⟨(i 0).val / 512, by rw [hN]; omega⟩, rfl⟩
  obtain ⟨-, -, -, -, -, -, -, -, e0, e1⟩ := idx_rows t
  refine ⟨t, flush0_9 t, ?_⟩
  rw [mem_blkC]
  intro a
  match a with
  | ⟨0, _⟩ =>
    show win0_9.index t (0 : Fin 2) * 512 ≤ (i 0).val ∧ (i 0).val < win0_9.index t (0 : Fin 2) * 512 + 512
    rw [e0, ht]; omega
  | ⟨1, _⟩ =>
    show win0_9.index t (1 : Fin 2) * 1024 ≤ (i 1).val ∧ (i 1).val < win0_9.index t (1 : Fin 2) * 1024 + 1024
    rw [e1]; omega

theorem coverH (i : S4096x1024.Idx) :
    ∃ t : Fin cfg0.N, (cfg0.win 8).flush t = true ∧ i ∈ ((cfg0.win 8).blk t).view.set := by
  have hN : cfg0.N = 8 := N_0
  have hi0 : (i 0).val < 4096 := (i 0).isLt
  have hi1 : (i 1).val < 1024 := (i 1).isLt
  obtain ⟨t, ht⟩ : ∃ t : Fin cfg0.N, t.val = (i 0).val / 512 := ⟨⟨(i 0).val / 512, by rw [hN]; omega⟩, rfl⟩
  obtain ⟨-, -, -, -, -, -, e0, e1, -⟩ := idx_rows t
  refine ⟨t, flush0_8 t, ?_⟩
  rw [mem_blkH]
  intro a
  match a with
  | ⟨0, _⟩ =>
    show win0_8.index t (0 : Fin 2) * 512 ≤ (i 0).val ∧ (i 0).val < win0_8.index t (0 : Fin 2) * 512 + 512
    rw [e0, ht]; omega
  | ⟨1, _⟩ =>
    show win0_8.index t (1 : Fin 2) * 1024 ≤ (i 1).val ∧ (i 1).val < win0_8.index t (1 : Fin 2) * 1024 + 1024
    rw [e1]; omega

/-! ## The arrays after the run -/

theorem finalC (c : Dev nD) : (dats m 0 c).arrAt 9 cfg0.N = newC m c :=
  (dats m 0 c).arrAt_eq_of_cover 9 (newC m c) (fun t _ => flushedC_eq m c t) coverC

theorem finalH (c : Dev nD) : (dats m 0 c).arrAt 8 cfg0.N = newH m c :=
  (dats m 0 c).arrAt_eq_of_cover 8 (newH m c) (fun t _ => flushedH_eq m c t) coverH

/-! ## Over the launch memory -/

/-- The new cell state as a function of the arguments as launched. -/
def outC (c : Dev nD) : S4096x1024.Idx → EReal :=
  cellC varOnePass sigTanh (m ((c : Thread nD τ).loc main_arg0)) (m ((c : Thread nD τ).loc main_arg1))
    (m ((c : Thread nD τ).loc main_arg2)) (m ((c : Thread nD τ).loc main_arg3)) (m ((c : Thread nD τ).loc main_arg4))
    (fun k => (m ((c : Thread nD τ).loc main_arg5) : S4096.Idx → EReal) (ix1 k))
    (fun k => (m ((c : Thread nD τ).loc main_arg6) : S4096.Idx → EReal) (ix1 k))
    (fun k => (m ((c : Thread nD τ).loc main_arg7) : S4096.Idx → EReal) (ix1 k))

/-- The new hidden state as a function of the arguments as launched. -/
def outH (c : Dev nD) : S4096x1024.Idx → EReal :=
  cellH varOnePass sigTanh (m ((c : Thread nD τ).loc main_arg0)) (m ((c : Thread nD τ).loc main_arg1))
    (m ((c : Thread nD τ).loc main_arg2)) (m ((c : Thread nD τ).loc main_arg3)) (m ((c : Thread nD τ).loc main_arg4))
    (fun k => (m ((c : Thread nD τ).loc main_arg5) : S4096.Idx → EReal) (ix1 k))
    (fun k => (m ((c : Thread nD τ).loc main_arg6) : S4096.Idx → EReal) (ix1 k))
    (fun k => (m ((c : Thread nD τ).loc main_arg7) : S4096.Idx → EReal) (ix1 k))

/-- A vector reshaped to a `1 × 4096` row reads, at `(0, k)`, the vector at `k`. -/
theorem row_of_vector (v : S4096.Idx → EReal) :
    (fun k : Fin 4096 => shapeCast S1x4096 v shapeCasts_S4096_S1x4096 (ix2 (0 : Fin 1) k)) = fun k => v (ix1 k) :=
  funext fun k => shapeCast_a_1a_apply v shapeCasts_S4096_S1x4096 0 k

theorem newC_eq (c : Dev nD) : newC m c = outC m c := by
  unfold newC outC
  rw [V_main_arg0, V_main_arg1, V_main_arg2, entry_wx, entry_wh, entry_b, entry_gamma, entry_beta,
    row_of_vector, row_of_vector, row_of_vector]

theorem newH_eq (c : Dev nD) : newH m c = outH m c := by
  unfold newH outH
  rw [V_main_arg0, V_main_arg1, V_main_arg2, entry_wx, entry_wh, entry_b, entry_gamma, entry_beta,
    row_of_vector, row_of_vector, row_of_vector]

/-! ## The run, read -/

/-- Every weakly fair execution of the kernel's program ends with the two result arrays at `outH` and `outC` of the
    arguments as launched, and the arguments unchanged. -/
theorem run : θ_run defs (onTc (τ := τ) (main (F := Ideal))) ⟨m, fun _ => 0, ρ⟩ fun r => ∀ c : Dev nD,
      r.2.mem ((c : Thread nD τ).loc main_v5_0) = outH m c
      ∧ r.2.mem ((c : Thread nD τ).loc main_v5_1) = outC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c =>
      ⟨(h c).1.trans ((finalH m c).trans (newH_eq m c)), (h c).2.1.trans ((finalC m c).trans (newC_eq m c)), (h c).2.2⟩)
    (ValueP.run_blocks m ρ)

end Cert.KernelIdeal.Arrays

end
-- ==== Proof.ReferenceArrays.lean ====
/-
  What the reference computes, read at an index, on the extended reals.

  The reference is a straight line of whole-array operations: two matrix products and a broadcast bias (the gate
  pre-activations, `4096 × 4096`), a row sum divided by 4096 (the mean), the row sum of the squared deviations divided by
  4096 (the variance, in two passes), the centred row times `rsqrt (var + ε)` times the scale plus the shift, four column
  slices, the sigmoid as `1 / (1 + e^{−z})` on three of them and tanh on the fourth, and the two results. Read one
  operation at a time and at an index, the two results are `cellH` and `cellC` of the arguments, with the variance in two
  passes and the sigmoid through exp.
-/
import proofs.«123146_j60550448939164_2_alg».proof.Proof.Gen.ReferenceIdeal.Read
import proofs.«123146_j60550448939164_2_alg».proof.Proof.CellSpec

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.LstmCell Cert.Lib.PlainDot

variable (x0 x1 x2 : FVec Ideal S4096x1024 .f32) (x3 x4 : FVec Ideal S1024x4096 .f32) (x5 x6 x7 : FVec Ideal S4096 .f32)

/-- The gate pre-activations at `(p, k)`. -/
theorem act_apply (p k : Fin 4096) :
    val_main_v5 (F := Ideal) x0 x1 x3 x4 x5 (ix2 p k) = preact x0 x1 x3 x4 (fun k => x5 (ix1 k)) p k := by
  have el0 : ∀ j : Fin 1024, lidx_main_v0 (ix2 p k) j = ix2 p j := fun j =>
    funext fun a => Fin.ext (by match a with | ⟨0, _⟩ => rfl | ⟨1, _⟩ => rfl)
  have er0 : ∀ j : Fin 1024, ridx_main_v0 (ix2 p k) j = ix2 j k := fun j =>
    funext fun a => Fin.ext (by match a with | ⟨0, _⟩ => rfl | ⟨1, _⟩ => rfl)
  have el1 : ∀ j : Fin 1024, lidx_main_v1 (ix2 p k) j = ix2 p j := fun j =>
    funext fun a => Fin.ext (by match a with | ⟨0, _⟩ => rfl | ⟨1, _⟩ => rfl)
  have er1 : ∀ j : Fin 1024, ridx_main_v1 (ix2 p k) j = ix2 j k := fun j =>
    funext fun a => Fin.ext (by match a with | ⟨0, _⟩ => rfl | ⟨1, _⟩ => rfl)
  have eb : idx_main_v3 (idx_main_v4 (ix2 p k)) = ix1 k :=
    funext fun a => Fin.ext (by match a with | ⟨0, _⟩ => rfl)
  simp only [val_main_v5_apply, val_main_v2_apply, val_main_v0_apply, val_main_v1_apply, val_main_v4_apply,
    val_main_v3_apply, el0, er0, el1, er1, eb]
  rfl

/-- The mean column at row `p`. -/
theorem mean_apply (p : Fin 4096) :
    val_main_v9 (F := Ideal) x0 x1 x3 x4 x5 (ix2 p (0 : Fin 1)) = rowMean (preact x0 x1 x3 x4 (fun k => x5 (ix1 k)) p) := by
  have e6 : ∀ k : Fin 4096, idx_main_v6 (idx_main_v7 (ix2 p (0 : Fin 1))) k = ix2 p k := fun k =>
    funext fun a => Fin.ext (by match a with | ⟨0, _⟩ => rfl | ⟨1, _⟩ => rfl)
  simp only [val_main_v9_apply, val_main_v7_apply, val_main_v6_apply, val_main_v8_apply, val_main_cst_0_apply,
    val_main_cst_apply, e6, act_apply, Ideal.ofBits_def, Ideal.ofBits_zero_f32, zero_add]
  rfl

/-- The variance column at row `p`, in two passes. -/
theorem var_apply (p : Fin 4096) :
    val_main_v16 (F := Ideal) x0 x1 x3 x4 x5 (ix2 p (0 : Fin 1)) = varTwoPass (preact x0 x1 x3 x4 (fun k => x5 (ix1 k)) p) := by
  have e13 : ∀ k : Fin 4096, idx_main_v13 (idx_main_v14 (ix2 p (0 : Fin 1))) k = ix2 p k := fun k =>
    funext fun a => Fin.ext (by match a with | ⟨0, _⟩ => rfl | ⟨1, _⟩ => rfl)
  have e10 : ∀ k : Fin 4096, idx_main_v10 (ix2 p k) = ix2 p (0 : Fin 1) := fun k =>
    funext fun a => Fin.ext (by match a with | ⟨0, _⟩ => rfl | ⟨1, _⟩ => rfl)
  simp only [val_main_v16_apply, val_main_v14_apply, val_main_v13_apply, val_main_v15_apply, val_main_cst_2_apply,
    val_main_cst_1_apply, e13, val_main_v12_apply, val_main_v11_apply, val_main_v10_apply, e10, mean_apply, act_apply,
    Ideal.ofBits_def, Ideal.ofBits_zero_f32, zero_add]
  rfl

/-- The normalised, scaled and shifted row at `(p, k)`. -/
theorem normed_apply (p k : Fin 4096) :
    val_main_v29 (F := Ideal) x0 x1 x3 x4 x5 x6 x7 (ix2 p k)
      = normed varTwoPass x0 x1 x3 x4 (fun k => x5 (ix1 k)) (fun k => x6 (ix1 k)) (fun k => x7 (ix1 k)) p k := by
  have e17 : idx_main_v17 (ix2 p k) = ix2 p (0 : Fin 1) :=
    funext fun a => Fin.ext (by match a with | ⟨0, _⟩ => rfl | ⟨1, _⟩ => rfl)
  have e22 : idx_main_v22 (ix2 p k) = ix2 p (0 : Fin 1) :=
    funext fun a => Fin.ext (by match a with | ⟨0, _⟩ => rfl | ⟨1, _⟩ => rfl)
  have eg : idx_main_v24 (idx_main_v25 (ix2 p k)) = ix1 k :=
    funext fun a => Fin.ext (by match a with | ⟨0, _⟩ => rfl)
  have eb : idx_main_v27 (idx_main_v28 (ix2 p k)) = ix1 k :=
    funext fun a => Fin.ext (by match a with | ⟨0, _⟩ => rfl)
  simp only [val_main_v29_apply, val_main_v26_apply, val_main_v23_apply, val_main_v18_apply, val_main_v17_apply,
    val_main_v22_apply, val_main_v21_apply, val_main_v20_apply, val_main_v19_apply, val_main_cst_3_apply,
    val_main_v25_apply, val_main_v24_apply, val_main_v28_apply, val_main_v27_apply, e17, e22, eg, eb,
    mean_apply, var_apply, act_apply]
  rfl

section Slices
variable (p : Fin 4096) (q : Fin 1024)

theorem slice0 : idx_main_v30 (ix2 p q) = ix2 p (col 0 (by norm_num) q) :=
  funext fun a => Fin.ext (by match a with | ⟨0, _⟩ => rfl | ⟨1, _⟩ => show q.val = 0 + q.val; omega)
theorem slice1 : idx_main_v37 (ix2 p q) = ix2 p (col 1024 (by norm_num) q) :=
  funext fun a => Fin.ext (by match a with | ⟨0, _⟩ => rfl | ⟨1, _⟩ => rfl)
theorem slice2 : idx_main_v44 (ix2 p q) = ix2 p (col 2048 (by norm_num) q) :=
  funext fun a => Fin.ext (by match a with | ⟨0, _⟩ => rfl | ⟨1, _⟩ => rfl)
theorem slice3 : idx_main_v51 (ix2 p q) = ix2 p (col 3072 (by norm_num) q) :=
  funext fun a => Fin.ext (by match a with | ⟨0, _⟩ => rfl | ⟨1, _⟩ => rfl)

/-- The new cell state at `(p, q)`. -/
theorem c_apply :
    val_main_v55 (F := Ideal) x0 x1 x2 x3 x4 x5 x6 x7 (ix2 p q)
      = cellC varTwoPass sigExp x0 x1 x2 x3 x4 (fun k => x5 (ix1 k)) (fun k => x6 (ix1 k)) (fun k => x7 (ix1 k)) (ix2 p q) := by
  simp only [val_main_v55_apply, val_main_v53_apply, val_main_v54_apply, val_main_v43_apply, val_main_v42_apply,
    val_main_v41_apply, val_main_v40_apply, val_main_v39_apply, val_main_v38_apply, val_main_v37_apply,
    val_main_v36_apply, val_main_v35_apply, val_main_v34_apply, val_main_v33_apply, val_main_v32_apply,
    val_main_v31_apply, val_main_v30_apply, val_main_v52_apply, val_main_v51_apply, val_main_cst_4_apply,
    val_main_cst_5_apply, val_main_cst_6_apply, val_main_cst_7_apply, slice0, slice1, slice3, normed_apply]
  rfl

/-- The new hidden state at `(p, q)`. -/
theorem h_apply :
    val_main_v57 (F := Ideal) x0 x1 x2 x3 x4 x5 x6 x7 (ix2 p q)
      = cellH varTwoPass sigExp x0 x1 x2 x3 x4 (fun k => x5 (ix1 k)) (fun k => x6 (ix1 k)) (fun k => x7 (ix1 k)) (ix2 p q) := by
  simp only [val_main_v57_apply, val_main_v56_apply, val_main_v50_apply, val_main_v49_apply, val_main_v48_apply,
    val_main_v47_apply, val_main_v46_apply, val_main_v45_apply, val_main_v44_apply, val_main_cst_8_apply,
    val_main_cst_9_apply, slice2, normed_apply, c_apply]
  rfl

end Slices

/-- The reference's two results as whole arrays. -/
theorem c_eq : val_main_v55 (F := Ideal) x0 x1 x2 x3 x4 x5 x6 x7
    = cellC varTwoPass sigExp x0 x1 x2 x3 x4 (fun k => x5 (ix1 k)) (fun k => x6 (ix1 k)) (fun k => x7 (ix1 k)) :=
  funext fun j => by
    obtain ⟨p, q, rfl⟩ : ∃ (p : Fin 4096) (q : Fin 1024), j = ix2 p q := ⟨j 0, j 1, eq_ix2 j⟩
    exact c_apply x0 x1 x2 x3 x4 x5 x6 x7 p q

theorem h_eq : val_main_v57 (F := Ideal) x0 x1 x2 x3 x4 x5 x6 x7
    = cellH varTwoPass sigExp x0 x1 x2 x3 x4 (fun k => x5 (ix1 k)) (fun k => x6 (ix1 k)) (fun k => x7 (ix1 k)) :=
  funext fun j => by
    obtain ⟨p, q, rfl⟩ : ∃ (p : Fin 4096) (q : Fin 1024), j = ix2 p q := ⟨j 0, j 1, eq_ix2 j⟩
    exact h_apply x0 x1 x2 x3 x4 x5 x6 x7 p q

end Cert.ReferenceIdeal.RefValue

end
-- ==== Proof.FiniteInputs.lean ====
/-
  Finite inputs are real numbers.

  The precondition says, of each of the eight argument arrays, `all (|x| < +∞)`, and joins the eight by `and`. An
  extended real whose absolute value `max x (−x)` lies strictly below `⊤` is neither `⊤` nor `⊥` (for both, the
  absolute value is `⊤`), so it is a real number. This file reads that off the printed precondition, argument by
  argument and entry by entry.
-/
import proofs.«123146_j60550448939164_2_alg».proof.Pre_finite_inputs
import Idealize.ShloMosaic.Lib.ReduceAll
import Idealize.ShloMosaic.Lib.ValueIdx
import Idealize.ShloMosaic.Lib.Pipeline.Value

noncomputable section

namespace Cert.LstmCell.Finite

open Idealize.ShloMosaic

/-- The scalar shape has one index. -/
instance : Subsingleton (⟨0, ![]⟩ : Shape).Idx := ⟨fun _ _ => funext fun d => d.elim0⟩

/-- An extended real whose absolute value is strictly below `⊤` is a real number. -/
theorem real_of_abs_lt_top (x y : EReal) (hy : y = ⊤) (h : Ideal.cmp .olt (max x (-x)) y = 1#1) : ∃ r : ℝ, x = (r : EReal) := by
  subst hy
  induction x using EReal.rec with
  | bot => simp [Ideal.cmp] at h
  | top => simp [Ideal.cmp] at h
  | coe r => exact ⟨r, rfl⟩

/-- One conjunct of the precondition, `all (|a| < +∞)` equal to the word `1`, makes every entry of `a` a real number. -/
theorem all_real {S : Shape} {axes : List (Fin S.rank)} (a : FVec Ideal S .f32)
    (hb : (⟨0, ![]⟩ : Shape).BroadcastsInDim S (![] : Fin 0 → Fin S.rank)) (hr : S.ReducesTo axes ⟨0, ![]⟩)
    (hu : 0 < (⟨0, ![]⟩ : Shape).numel)
    (e : Host.reduce IntOp.andi
        (cmpf .olt (Host.absf (F := Ideal) a) (broadcastInDim S ![] hb (constant (F := Ideal) ⟨0, ![]⟩ .f32 0x7F800000#32)))
        (constantI ⟨0, ![]⟩ 1 1#1) hr hu ValueIdx.ix0 = 1#1)
    (i : S.Idx) : ∃ r : ℝ, a i = (r : EReal) := by
  have hi := Host.reduce_andi_all _ _ hr hu ValueIdx.ix0 e i
  have hbc : broadcastInDim S ![] hb (constant (F := Ideal) ⟨0, ![]⟩ .f32 0x7F800000#32) i = Ideal.ofBits .f32 0x7F800000#32 :=
    broadcastInDim_apply _ hb _ i ValueIdx.ix0 (fun d => d.elim0)
  have hi' : Ideal.cmp .olt (max (a i) (-(a i)))
      (broadcastInDim S ![] hb (constant (F := Ideal) ⟨0, ![]⟩ .f32 0x7F800000#32) i) = 1#1 := hi
  rw [hbc] at hi'
  exact real_of_abs_lt_top _ _ (by simp [Ideal.ofBits, Ideal.ieee]) hi'

open Cert.Pre_finite_inputs in
/-- Under the precondition every entry of every argument array is a real number. -/
theorem reals_of_pre [Cert.Pre_finite_inputs.Facts]
    (a0 a1 a2 : FVec Ideal S4096x1024 .f32) (a3 a4 : FVec Ideal S1024x4096 .f32) (a5 a6 a7 : FVec Ideal S4096 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) := by
  have h0 := congrFun h ValueIdx.ix0
  unfold Cert.Pre_finite_inputs.fn at h0
  dsimp only at h0
  unfold Cert.Pre_finite_inputs.fn_part1 at h0
  dsimp only at h0
  unfold Cert.Pre_finite_inputs.fn_part2 at h0
  dsimp only at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ e0, all_real a1 _ _ _ e1, all_real a2 _ _ _ e2, all_real a3 _ _ _ e3,
    all_real a4 _ _ _ e4, all_real a5 _ _ _ e5, all_real a6 _ _ _ e6, all_real a7 _ _ _ e7⟩

end Cert.LstmCell.Finite

end
-- ==== Proof.lean ====
/-
  One LSTM step with layer normalisation: a fused kernel against its plain reference, equal on the extended reals.

  Both programs take a batch `x`, the previous hidden and cell states, two weight matrices, a bias and the layer norm's
  scale and shift, and return the new hidden and cell states. Row by row both form the 4096 gate pre-activations
  `a = x · Wx + h · Wh + b`, normalise them by the row's mean and variance, scale and shift them, cut them into the input,
  forget, output and candidate gates, and return `c' = f · c + i · g` and `h' = o · tanh c'`. They differ in two spellings:

  * the variance: the kernel takes `max (E[a²] − E[a]², 0)` in one pass over the row, the reference `E[(a − E[a])²]` in
    two. On a row of real numbers these are one number (the second is the first without the maximum, and is a mean of
    squares, so the maximum is idle); with an infinite entry they are not, so this is where the precondition — every
    input finite, hence every pre-activation real — is used;
  * the sigmoid: the kernel takes `½ (1 + tanh (½ z))`, the reference `1 / (1 + e^{−z})`; these agree at every extended
    real.

  Everything else is the same function on both sides: the kernel rounds the matmul operands to bf16, which on the
  extended reals changes nothing; it computes 512 rows per grid point, and a row of the result depends on that row of
  the inputs only, so its 8 blocks are the 8 blocks of rows of one whole-array function (Proof/KernelArrays.lean, over
  the body's payloads read at an index in Proof/KernelPayload.lean); the reference is read one operation at a time
  (Proof/ReferenceArrays.lean). The mathematics is in Proof/CellAlgebra.lean and Proof/CellSpec.lean, the reading of the
  precondition in Proof/FiniteInputs.lean. The idealized kernel is the kernel's own text read on the extended reals, no
  operation rewritten, so `preserves` has nothing to state.
-/
import proofs.«123146_j60550448939164_2_alg».proof.Defs
import proofs.«123146_j60550448939164_2_alg».proof.Proof.Gen.Kernel
import proofs.«123146_j60550448939164_2_alg».proof.Proof.Gen.Kernel.Skeleton
import proofs.«123146_j60550448939164_2_alg».proof.Proof.Gen.Kernel.Launch
import proofs.«123146_j60550448939164_2_alg».proof.Proof.Gen.Kernel.Points
import proofs.«123146_j60550448939164_2_alg».proof.Proof.Gen.Kernel.Frame
import proofs.«123146_j60550448939164_2_alg».proof.Proof.Gen.KernelIdeal
import proofs.«123146_j60550448939164_2_alg».proof.Proof.Gen.KernelIdeal.Skeleton
import proofs.«123146_j60550448939164_2_alg».proof.Proof.Gen.KernelIdeal.Launch
import proofs.«123146_j60550448939164_2_alg».proof.Proof.Gen.KernelIdeal.Points
import proofs.«123146_j60550448939164_2_alg».proof.Proof.Gen.KernelIdeal.Frame
import proofs.«123146_j60550448939164_2_alg».proof.Proof.Gen.ReferenceIdeal
import proofs.«123146_j60550448939164_2_alg».proof.Proof.Gen.Pre_finite_inputs
import proofs.«123146_j60550448939164_2_alg».proof.Proof.Gen.ReferenceIdeal.Run
import proofs.«123146_j60550448939164_2_alg».proof.Proof.Gen.ReferenceIdeal.Read
import proofs.«123146_j60550448939164_2_alg».proof.Proof.KernelArrays
import proofs.«123146_j60550448939164_2_alg».proof.Proof.ReferenceArrays
import proofs.«123146_j60550448939164_2_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx Cert.LstmCell

/-! ## The three programs run and leave their arguments alone -/

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealized kernel is the kernel's own text: no operation was rewritten, so there is nothing to preserve. -/
theorem preserves : Cert.preserves_Kernel_KernelIdeal := trivial

/-! ## The two idealized programs end with equal results -/

/-- From memories that agree on the eight arguments, all finite: the kernel's program ends with the new hidden and cell
    states at `cellH` / `cellC` of the arguments in its own spelling (one-pass variance, sigmoid through tanh), the
    reference's at the same two functions in its spelling (two-pass variance, sigmoid through exp), and on real
    pre-activations the two spellings are one function. -/
theorem algebraic : Cert.algebraic_KernelIdeal_ReferenceIdeal := by
  intro m ρ m' ρ' hpre hagree
  refine ⟨fun c => Cert.KernelIdeal.Arrays.outH m c, fun c => Cert.KernelIdeal.Arrays.outC m c,
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  all_goals
    obtain ⟨a0, a1, a2, a3, a4, a5, a6, a7⟩ := hagree c
    obtain ⟨r0, r1, r2, r3, r4, r5, r6, r7⟩ := Cert.LstmCell.Finite.reals_of_pre _ _ _ _ _ _ _ _ (hpre c)
    have hreal := fun p k => preact_real (B := 4096) _ _ _ _ _ r0 r1 r3 r4 (fun k => r5 (ix1 k)) p k
  · rw [Cert.ReferenceIdeal.Read.val_main_v57_eq, Cert.ReferenceIdeal.RefValue.h_eq, a0, a1, a2, a3, a4, a5, a6, a7]
    exact (cellH_two_spellings _ _ _ _ _ _ _ _ hreal).symm
  · rw [Cert.ReferenceIdeal.Read.val_main_v55_eq, Cert.ReferenceIdeal.RefValue.c_eq, a0, a1, a2, a3, a4, a5, a6, a7]
    exact (cellC_two_spellings _ _ _ _ _ _ _ _ hreal).symm

/-! ## The claim -/

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
